-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩

class Facts : Prop where
  bcast_S_S8x64x256 : S_.BroadcastsInDim S8x64x256 (![] : Fin 0 → Fin S8x64x256.rank)
  reducesTo_S8x64x256_S_d0_1_2 : S8x64x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768 .f32) (main_arg5 : FVec F S768x768 .f32) (main_arg6 : FVec F S768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x64x256 .f32) (main_arg1 : FVec F S256x512 .f32) (main_arg2 : FVec F S512 .f32) (main_arg3 : FVec F S512x768 .f32) (main_arg4 : FVec F S768 .f32) (main_arg5 : FVec F S768x768 .f32) (main_arg6 : FVec F S768 .f32) : IVec S_ 1 :=
  let main_v0 : FVec F S8x64x256 .f32 := Host.absf main_arg0
  let main_cst : FVec F S_ .f32 := constant S_ .f32 0x7F800000#32
  let main_v1 : FVec F S8x64x256 .f32 := broadcastInDim S8x64x256 ![] bcast_S_S8x64x256 main_cst
  let main_v2 : IVec S8x64x256 1 := cmpf .olt main_v0 main_v1
  let main_c : IVec S_ 1 := constantI S_ 1 1#1
  let main_v3 : IVec S_ 1 := (fun x v => Host.reduce IntOp.andi x v reducesTo_S8x64x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩
abbrev S8x64 : Shape := ⟨2, ![8, 64]⟩
abbrev S8x64x64 : Shape := ⟨3, ![8, 64, 64]⟩
abbrev S8x4096 : Shape := ⟨2, ![8, 4096]⟩
abbrev S32768x1 : Shape := ⟨2, ![32768, 1]⟩
abbrev S1x768 : Shape := ⟨2, ![1, 768]⟩
abbrev S32768x768 : Shape := ⟨2, ![32768, 768]⟩
abbrev S2048x1 : Shape := ⟨2, ![2048, 1]⟩
abbrev S2048x768 : Shape := ⟨2, ![2048, 768]⟩
abbrev S8x4096x768 : Shape := ⟨3, ![8, 4096, 768]⟩

abbrev nBuf : Space → Nat
  | .hbm => 36
  | .vmem => 6
  | .smem => 0
  | _ => 0

abbrev bufTy : (tb : Table) → Fin (tcTables nBuf tb) → BufTy
  | .hbm, ⟨0, _⟩ => ⟨S8x64x256, .f32⟩
  | .hbm, ⟨1, _⟩ => ⟨S256x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S8x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S768, .f32⟩
  | .hbm, ⟨23, _⟩ => ⟨S768, .f32⟩
  | .hbm, ⟨24, _⟩ => ⟨S_, .f32⟩
  | .hbm, ⟨25, _⟩ => ⟨S_, .f32⟩
  | .hbm, ⟨26, _⟩ => ⟨S768, .f32⟩
  | .hbm, ⟨27, _⟩ => ⟨S768, .f32⟩
  | .hbm, ⟨28, _⟩ => ⟨S768, .f32⟩
  | .hbm, ⟨29, _⟩ => ⟨S8x64x64, .f32⟩
  | .hbm, ⟨30, _⟩ => ⟨S8x4096, .f32⟩
  | .hbm, ⟨31, _⟩ => ⟨S32768x1, .f32⟩
  | .hbm, ⟨32, _⟩ => ⟨S1x768, .f32⟩
  | .hbm, ⟨33, _⟩ => ⟨S1x768, .f32⟩
  | .hbm, ⟨34, _⟩ => ⟨S32768x768, .f32⟩
  | .hbm, ⟨35, _⟩ => ⟨S8x4096x768, .f32⟩
  | .local _ .vmem, ⟨0, _⟩ => ⟨S2048x1, .f32⟩
  | .local _ .vmem, ⟨1, _⟩ => ⟨S2048x1, .f32⟩
  | .local _ .vmem, ⟨2, _⟩ => ⟨S1x768, .f32⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S8x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_cst_4 : Ref sig .tc := ⟨.hbm, 17, rfl⟩
abbrev main_v5 : Ref sig .tc := ⟨.hbm, 18, rfl⟩
abbrev main_cst_5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8x64x256_S8x64_d2 : S8x64x256.ReducesTo [2] S8x64
  h_S_ : 0 < S_.numel
  reducesTo_S256x512_S_d0_1 : S256x512.ReducesTo [0, 1] S_
  reducesTo_S512_S_d0 : S512.ReducesTo [0] S_
  reducesTo_S512x768_S_d0_1 : S512x768.ReducesTo [0, 1] S_
  reducesTo_S768_S_d0 : S768.ReducesTo [0] S_
  reducesTo_S768x768_S768_d0 : S768x768.ReducesTo [0] S768
  bcast_S_S768 : S_.BroadcastsInDim S768 (![] : Fin 0 → Fin S768.rank)
  bcast_S8x64_S8x64x64_0_1 : S8x64.BroadcastsInDim S8x64x64 (![0, 1] : Fin 2 → Fin S8x64x64.rank)
  shapeCasts_S8x64x64_S8x4096 : S8x64x64.ShapeCasts S8x4096
  shapeCasts_S8x4096_S32768x1 : S8x4096.ShapeCasts S32768x1
  shapeCasts_S768_S1x768 : S768.ShapeCasts S1x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S2048x1_S2048x768 : S2048x1.Broadcasts S2048x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S32768x768_S8x4096x768 : S32768x768.ShapeCasts S8x4096x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S32768x1.size a
  hwx0_0 : ∀ i : grid0.Coords, EltTy.bits .f32 = 32 ∨ (Rect.block (s := S32768x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S32768x768.size a
  hwx0_3 : ∀ i : grid0.Coords, EltTy.bits .f32 = 32 ∨ (Rect.block (s := S32768x768) S2048x768.size (cc0_transform_3 i) (hinb0_3 i)).WholeWords (EltTy.packing .f32)

variable [Facts₀]

abbrev win0_0 : Pipeline.Window sig grid0 :=
  Pipeline.Window.ofSpec (Memref.whole main_v17) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x256 : Shape := ⟨3, ![8, 64, 256]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x768 : Shape := ⟨2, ![768, 768]⟩
abbrev S_ : Shape := ⟨0, ![]⟩
abbrev S8x64 : Shape := ⟨2, ![8, 64]⟩
abbrev S8x64x1 : Shape := ⟨3, ![8, 64, 1]⟩
abbrev S8x64x4x256 : Shape := ⟨4, ![8, 64, 4, 256]⟩
abbrev S8x256x256 : Shape := ⟨3, ![8, 256, 256]⟩
abbrev S8x256 : Shape := ⟨2, ![8, 256]⟩
abbrev S8x256x1 : Shape := ⟨3, ![8, 256, 1]⟩
abbrev S8x256x2x256 : Shape := ⟨4, ![8, 256, 2, 256]⟩
abbrev S8x512x256 : Shape := ⟨3, ![8, 512, 256]⟩
abbrev S8x512 : Shape := ⟨2, ![8, 512]⟩
abbrev S8x512x1 : Shape := ⟨3, ![8, 512, 1]⟩
abbrev S8x512x2x256 : Shape := ⟨4, ![8, 512, 2, 256]⟩
abbrev S8x1024x256 : Shape := ⟨3, ![8, 1024, 256]⟩
abbrev S8x1024x512 : Shape := ⟨3, ![8, 1024, 512]⟩
abbrev S1x1x512 : Shape := ⟨3, ![1, 1, 512]⟩
abbrev S8x1024 : Shape := ⟨2, ![8, 1024]⟩
abbrev S8x1024x1 : Shape := ⟨3, ![8, 1024, 1]⟩
abbrev S8x1024x2x512 : Shape := ⟨4, ![8, 1024, 2, 512]⟩
abbrev S8x2048x512 : Shape := ⟨3, ![8, 2048, 512]⟩
abbrev S8x2048x768 : Shape := ⟨3, ![8, 2048, 768]⟩
abbrev S1x1x768 : Shape := ⟨3, ![1, 1, 768]⟩
abbrev S8x2048 : Shape := ⟨2, ![8, 2048]⟩
abbrev S8x2048x1 : Shape := ⟨3, ![8, 2048, 1]⟩
abbrev S8x2048x2x768 : Shape := ⟨4, ![8, 2048, 2, 768]⟩
abbrev S8x4096x768 : Shape := ⟨3, ![8, 4096, 768]⟩

abbrev nBuf : Space → Nat
  | .hbm => 49
  | .vmem => 0
  | .smem => 0
  | _ => 0

abbrev bufTy : (tb : Table) → Fin (tcTables nBuf tb) → BufTy
  | .hbm, ⟨0, _⟩ => ⟨S8x64x256, .f32⟩
  | .hbm, ⟨1, _⟩ => ⟨S256x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .f32⟩
  | .hbm, ⟨8, _⟩ => ⟨S8x64, .f32⟩
  | .hbm, ⟨9, _⟩ => ⟨S8x64x1, .f32⟩
  | .hbm, ⟨10, _⟩ => ⟨S8x64x256, .f32⟩
  | .hbm, ⟨11, _⟩ => ⟨S8x64x4x256, .f32⟩
  | .hbm, ⟨12, _⟩ => ⟨S8x256x256, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S8x256x256, .f32⟩
  | .hbm, ⟨17, _⟩ => ⟨S8x256x2x256, .f32⟩
  | .hbm, ⟨18, _⟩ => ⟨S8x512x256, .f32⟩
  | .hbm, ⟨19, _⟩ => ⟨S_, .f32⟩
  | .hbm, ⟨20, _⟩ => ⟨S8x512, .f32⟩
  | .hbm, ⟨21, _⟩ => ⟨S8x512x1, .f32⟩
  | .hbm, ⟨22, _⟩ => ⟨S8x512x256, .f32⟩
  | .hbm, ⟨23, _⟩ => ⟨S8x512x2x256, .f32⟩
  | .hbm, ⟨24, _⟩ => ⟨S8x1024x256, .f32⟩
  | .hbm, ⟨25, _⟩ => ⟨S8x1024x512, .f32⟩
  | .hbm, ⟨26, _⟩ => ⟨S1x1x512, .f32⟩
  | .hbm, ⟨27, _⟩ => ⟨S8x1024x512, .f32⟩
  | .hbm, ⟨28, _⟩ => ⟨S8x1024x512, .f32⟩
  | .hbm, ⟨29, _⟩ => ⟨S_, .f32⟩
  | .hbm, ⟨30, _⟩ => ⟨S8x1024, .f32⟩
  | .hbm, ⟨31, _⟩ => ⟨S8x1024x1, .f32⟩
  | .hbm, ⟨32, _⟩ => ⟨S8x1024x512, .f32⟩
  | .hbm, ⟨33, _⟩ => ⟨S8x1024x2x512, .f32⟩
  | .hbm, ⟨34, _⟩ => ⟨S8x2048x512, .f32⟩
  | .hbm, ⟨35, _⟩ => ⟨S8x2048x768, .f32⟩
  | .hbm, ⟨36, _⟩ => ⟨S1x1x768, .f32⟩
  | .hbm, ⟨37, _⟩ => ⟨S8x2048x768, .f32⟩
  | .hbm, ⟨38, _⟩ => ⟨S8x2048x768, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x768, .f32⟩
  | .hbm, ⟨43, _⟩ => ⟨S8x2048x2x768, .f32⟩
  | .hbm, ⟨44, _⟩ => ⟨S8x4096x768, .f32⟩
  | .hbm, ⟨45, _⟩ => ⟨S8x4096x768, .f32⟩
  | .hbm, ⟨46, _⟩ => ⟨S1x1x768, .f32⟩
  | .hbm, ⟨47, _⟩ => ⟨S8x4096x768, .f32⟩
  | .hbm, ⟨48, _⟩ => ⟨S8x4096x768, .f32⟩
  | _, _ => ⟨S8x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  reducesTo_S8x64x256_S8x64_d2 : S8x64x256.ReducesTo [2] S8x64
  h_S_ : 0 < S_.numel
  bcast_S8x64_S8x64x1_0_1 : S8x64.BroadcastsInDim S8x64x1 (![0, 1] : Fin 2 → Fin S8x64x1.rank)
  bcast_S8x64x1_S8x64x256_0_1_2 : S8x64x1.BroadcastsInDim S8x64x256 (![0, 1, 2] : Fin 3 → Fin S8x64x256.rank)
  bcast_S8x64x256_S8x64x4x256_0_1_3 : S8x64x256.BroadcastsInDim S8x64x4x256 (![0, 1, 3] : Fin 3 → Fin S8x64x4x256.rank)
  shapeCasts_S8x64x4x256_S8x256x256 : S8x64x4x256.ShapeCasts S8x256x256
  reducesTo_S8x256x256_S8x256_d2 : S8x256x256.ReducesTo [2] S8x256
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  bcast_S8x256x256_S8x256x2x256_0_1_3 : S8x256x256.BroadcastsInDim S8x256x2x256 (![0, 1, 3] : Fin 3 → Fin S8x256x2x256.rank)
  shapeCasts_S8x256x2x256_S8x512x256 : S8x256x2x256.ShapeCasts S8x512x256
  reducesTo_S8x512x256_S8x512_d2 : S8x512x256.ReducesTo [2] S8x512
  bcast_S8x512_S8x512x1_0_1 : S8x512.BroadcastsInDim S8x512x1 (![0, 1] : Fin 2 → Fin S8x512x1.rank)
  bcast_S8x512x1_S8x512x256_0_1_2 : S8x512x1.BroadcastsInDim S8x512x256 (![0, 1, 2] : Fin 3 → Fin S8x512x256.rank)
  bcast_S8x512x256_S8x512x2x256_0_1_3 : S8x512x256.BroadcastsInDim S8x512x2x256 (![0, 1, 3] : Fin 3 → Fin S8x512x2x256.rank)
  shapeCasts_S8x512x2x256_S8x1024x256 : S8x512x2x256.ShapeCasts S8x1024x256
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S8x1024x1_S8x1024x512_0_1_2 : S8x1024x1.BroadcastsInDim S8x1024x512 (![0, 1, 2] : Fin 3 → Fin S8x1024x512.rank)
  bcast_S8x1024x512_S8x1024x2x512_0_1_3 : S8x1024x512.BroadcastsInDim S8x1024x2x512 (![0, 1, 3] : Fin 3 → Fin S8x1024x2x512.rank)
  shapeCasts_S8x1024x2x512_S8x2048x512 : S8x1024x2x512.ShapeCasts S8x2048x512
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x768_S8x2048_d2 : S8x2048x768.ReducesTo [2] S8x2048
  bcast_S8x2048_S8x2048x1_0_1 : S8x2048.BroadcastsInDim S8x2048x1 (![0, 1] : Fin 2 → Fin S8x2048x1.rank)
  bcast_S8x2048x1_S8x2048x768_0_1_2 : S8x2048x1.BroadcastsInDim S8x2048x768 (![0, 1, 2] : Fin 3 → Fin S8x2048x768.rank)
  bcast_S8x2048x768_S8x2048x2x768_0_1_3 : S8x2048x768.BroadcastsInDim S8x2048x2x768 (![0, 1, 3] : Fin 3 → Fin S8x2048x2x768.rank)
  shapeCasts_S8x2048x2x768_S8x4096x768 : S8x2048x2x768.ShapeCasts S8x4096x768
  bcast_S1x1x768_S8x4096x768_0_1_2 : S1x1x768.BroadcastsInDim S8x4096x768 (![0, 1, 2] : Fin 3 → Fin S8x4096x768.rank)
  dot_S8x1024x256_S256x512_S8x1024x512_2_0_01_1_n_n_wf : DotDims.WF S8x1024x256 S256x512 S8x1024x512 [2] [0] [0, 1] [1] [] []
  dot_S8x2048x512_S512x768_S8x2048x768_2_0_01_1_n_n_wf : DotDims.WF S8x2048x512 S512x768 S8x2048x768 [2] [0] [0, 1] [1] [] []
  dot_S8x4096x768_S768x768_S8x4096x768_2_0_01_1_n_n_wf : DotDims.WF S8x4096x768 S768x768 S8x4096x768 [2] [0] [0, 1] [1] [] []

variable [Facts₀]

def dot_S8x1024x256_S256x512_S8x1024x512_2_0_01_1_n_n : DotDims S8x1024x256 S256x512 S8x1024x512 where
  lhsContracting := [2]
  rhsContracting := [0]
  lhsNonContracting := [0, 1]
  rhsNonContracting := [1]
  lhsBatch := []
  rhsBatch := []
  wf := dot_S8x1024x256_S256x512_S8x1024x512_2_0_01_1_n_n_wf
def dot_S8x2048x512_S512x768_S8x2048x768_2_0_01_1_n_n : DotDims S8x2048x512 S512x768 S8x2048x768 where
  lhsContracting := [2]
  rhsContracting := [0]
  lhsNonContracting := [0, 1]
  rhsNonContracting := [1]
  lhsBatch := []
  rhsBatch := []
  wf := dot_S8x2048x512_S512x768_S8x2048x768_2_0_01_1_n_n_wf
def dot_S8x4096x768_S768x768_S8x4096x768_2_0_01_1_n_n : DotDims S8x4096x768 S768x768 S8x4096x768 where
  lhsContracting := [2]
  rhsContracting := [0]
  lhsNonContracting := [0, 1]
  rhsNonContracting := [1]
  lhsBatch := []
  rhsBatch := []
  wf := dot_S8x4096x768_S768x768_S8x4096x768_2_0_01_1_n_n_wf

class Facts : Prop extends Facts₀ where

variable [Facts]
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Finite.lean ====
/-
  The precondition says every argument has real entries.

  The precondition is the conjunction, over the seven argument arrays, of "every entry's absolute value is below
  plus infinity". Each conjunct is an all-reduction by "and" of an entrywise comparison; the conjunction being 1
  makes each all-reduction 1, hence each comparison 1 at every entry, hence every entry a real number.
-/
import proofs.«163877_j42039139893533_2_alg».proof.Pre_finite_inputs
import proofs.«163877_j42039139893533_2_alg».proof.Proof.LibReal
import Idealize.ShloMosaic.Lib.ReduceAll
import Idealize.ShloMosaic.Lib.ValueIdx

noncomputable section

namespace Cert.FiniteInputs

open Idealize.ShloMosaic Idealize.ShloMosaic.ValueIdx Cert.LibReal Cert.Pre_finite_inputs

/-- An all-reduction by "and" of the comparison of the absolute values with plus infinity being 1 makes every entry real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (a : FVec Ideal s .f32) (init : (⟨0, ![]⟩ : Shape).Idx → BitVec 1)
    (h : Host.reduce IntOp.andi
        (cmpf .olt (Host.absf a) (broadcastInDim s ![] hb (constant (⟨0, ![]⟩ : Shape) .f32 0x7F800000#32))) init hr hu ix0 = 1#1) :
    ∀ i, IsReal (a i) :=
  fun i => elem_real hb a i (Host.reduce_andi_all _ init hr hu ix0 h i)

variable [Cert.Pre_finite_inputs.Facts]

/-- The precondition's function being all ones makes each of the seven arguments an array of real numbers. -/
theorem args_real (a0 : FVec Ideal S8x64x256 .f32) (a1 : FVec Ideal S256x512 .f32) (a2 : FVec Ideal S512 .f32)
    (a3 : FVec Ideal S512x768 .f32) (a4 : FVec Ideal S768 .f32) (a5 : FVec Ideal S768x768 .f32) (a6 : FVec Ideal S768 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all _ _ _ a0 _ h3, real_of_all _ _ _ a1 _ h7, real_of_all _ _ _ a2 _ h12, real_of_all _ _ _ a3 _ h17,
    real_of_all _ _ _ a4 _ h22, real_of_all _ _ _ a5 _ h27, real_of_all _ _ _ a6 _ h32⟩

end Cert.FiniteInputs

end
-- ==== Proof.KernelHost.lean ====
/-
  The arrays the kernel's region finds: the host operations before it, as functions of the arguments.

  Before the region the program computes, on the host, the row sums of the input [8, 64], spreads each over 64
  consecutive positions ([8, 64] → [8, 64, 64] → [8, 4096]) and lays the result out as a column [32768, 1]; the
  total sums of the first two weight matrices and of the first two biases; the column sums of the third weight
  matrix; and from these the scale row and the offset row [1, 768].
-/
import proofs.«163877_j42039139893533_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The input's row sums. -/
def rows (z : FVec F S8x64x256 .f32) : FVec F S8x64 .f32 :=
  Host.reduceAdd z (constant S_ .f32 0x00000000#32) reducesTo_S8x64x256_S8x64_d2 h_S_
/-- Each row sum repeated over 64 positions, as a column. -/
def aCol (z : FVec F S8x64x256 .f32) : FVec F S32768x1 .f32 :=
  shapeCast S32768x1 (shapeCast S8x4096 (broadcastInDim S8x64x64 ![0, 1] bcast_S8x64_S8x64x64_0_1 (rows z))
    shapeCasts_S8x64x64_S8x4096) shapeCasts_S8x4096_S32768x1
/-- The total of the first weight matrix. -/
def tot1 (W1 : FVec F S256x512 .f32) : FVec F S_ .f32 :=
  Host.reduceAdd W1 (constant S_ .f32 0x00000000#32) reducesTo_S256x512_S_d0_1 h_S_
/-- The total of the first bias. -/
def totb1 (b1 : FVec F S512 .f32) : FVec F S_ .f32 :=
  Host.reduceAdd b1 (constant S_ .f32 0x00000000#32) reducesTo_S512_S_d0 h_S_
/-- The total of the second weight matrix. -/
def tot2 (W2 : FVec F S512x768 .f32) : FVec F S_ .f32 :=
  Host.reduceAdd W2 (constant S_ .f32 0x00000000#32) reducesTo_S512x768_S_d0_1 h_S_
/-- The total of the second bias. -/
def totb2 (b2 : FVec F S768 .f32) : FVec F S_ .f32 :=
  Host.reduceAdd b2 (constant S_ .f32 0x00000000#32) reducesTo_S768_S_d0 h_S_
/-- The column sums of the third weight matrix. -/
def cols3 (W3 : FVec F S768x768 .f32) : FVec F S768 .f32 :=
  Host.reduceAdd W3 (constant S_ .f32 0x00000000#32) reducesTo_S768x768_S768_d0 h_S_
/-- The scale row. -/
def gammaRow (W1 : FVec F S256x512 .f32) (W2 : FVec F S512x768 .f32) (W3 : FVec F S768x768 .f32) : FVec F S1x768 .f32 :=
  shapeCast S1x768 (mulf (broadcastInDim S768 ![] bcast_S_S768
    (mulf (mulf (constant S_ .f32 0x47800000#32) (tot1 W1)) (tot2 W2))) (cols3 W3)) shapeCasts_S768_S1x768
/-- The offset row. -/
def betaRow (b1 : FVec F S512 .f32) (W2 : FVec F S512x768 .f32) (b2 : FVec F S768 .f32) (W3 : FVec F S768x768 .f32)
    (b3 : FVec F S768 .f32) : FVec F S1x768 .f32 :=
  shapeCast S1x768 (addf (mulf (broadcastInDim S768 ![] bcast_S_S768
    (addf (mulf (totb1 b1) (tot2 W2)) (totb2 b2))) (cols3 W3)) b3) shapeCasts_S768_S1x768

variable (m : (ℓ : Loc nD τ sig) → Buf (Elt F) ℓ)

/-- The region's first operand is the column of repeated row sums of the input. -/
theorem V_main_v17 (c : Dev nD) :
    (V m c main_v17 : S32768x1.Idx → Elt F .f32) = aCol (m ((c : Thread nD τ).loc main_arg0)) := by
  show StableHlo.after hostOps0 (fun b => m (c, b)) (Proc.devRef .tc main_v17) = _
  after_results_simp
  rfl

/-- The region's second operand is the scale row. -/
theorem V_main_v18 (c : Dev nD) :
    (V m c main_v18 : S1x768.Idx → Elt F .f32)
      = gammaRow (m ((c : Thread nD τ).loc main_arg1)) (m ((c : Thread nD τ).loc main_arg3)) (m ((c : Thread nD τ).loc main_arg5)) := by
  show StableHlo.after hostOps0 (fun b => m (c, b)) (Proc.devRef .tc main_v18) = _
  after_results_simp
  rfl

/-- The region's third operand is the offset row. -/
theorem V_main_v19 (c : Dev nD) :
    (V m c main_v19 : S1x768.Idx → Elt F .f32)
      = betaRow (m ((c : Thread nD τ).loc main_arg2)) (m ((c : Thread nD τ).loc main_arg3)) (m ((c : Thread nD τ).loc main_arg4))
          (m ((c : Thread nD τ).loc main_arg5)) (m ((c : Thread nD τ).loc main_arg6)) := by
  show StableHlo.after hostOps0 (fun b => m (c, b)) (Proc.devRef .tc main_v19) = _
  after_results_simp
  rfl

end Cert.KernelIdeal.HostValue

end
-- ==== Proof.KernelValue.lean ====
/-
  The kernel's result array.

  The region's body multiplies its block of the column [2048, 1], spread along the 768 channels, by the scale row
  [1, 768], spread along the 2048 rows, and adds the offset row: entry (p, q) of the output block is
  `a(p) · g(q) + be(q)`. Grid point `t` reads rows `2048 t … 2048 t + 2047` of the column and the whole of both rows,
  and writes rows `2048 t …` of the output [32768, 768]; the sixteen blocks tile the output, so the output array is
  the outer product plus offset of the three operand arrays, entry by entry (`outer`). The host operation after the
  region regroups the rows as [8, 4096, 768].
-/
import proofs.«163877_j42039139893533_2_alg».proof.Proof.KernelHost
import Idealize.ShloMosaic.Lib.Pipeline.Value
import Idealize.ShloMosaic.Lib.ValueLayout
import Idealize.ShloMosaic.Lib.Tactic

noncomputable section

namespace Cert.KernelIdeal.BlockValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-- The outer product of a column and a row, plus a row: entry (r, e) is `a(r) · g(e) + be(e)`. -/
def outer (a : S32768x1.Idx → EReal) (g be : S1x768.Idx → EReal) : S32768x768.Idx → EReal := fun i =>
  a (ix2 (⟨(i 0).val, (i 0).isLt⟩ : Fin 32768) (0 : Fin 1)) * g (ix2 (0 : Fin 1) (⟨(i 1).val, (i 1).isLt⟩ : Fin 768))
    + be (ix2 (0 : Fin 1) (⟨(i 1).val, (i 1).isLt⟩ : Fin 768))

theorem outer_apply (a : S32768x1.Idx → EReal) (g be : S1x768.Idx → EReal) (r : Fin 32768) (e : Fin 768) :
    outer a g be (ix2 r e) = a (ix2 r (0 : Fin 1)) * g (ix2 (0 : Fin 1) e) + be (ix2 (0 : Fin 1) e) := rfl

/-- A column [2048, 1] spread over 768 channels reads, at (p, q), its entry p. -/
theorem spread_col (v : S2048x1.Idx → EReal) (p : Fin 2048) (q : Fin 768) :
    broadcastTo S2048x768 v broadcasts_S2048x1_S2048x768 (ix2 p q) = v (ix2 p (0 : Fin 1)) :=
  broadcastTo_apply v broadcasts_S2048x1_S2048x768 (ix2 p q) (ix2 p (0 : Fin 1)) fun ax =>
    match ax with
    | ⟨0, _⟩ => by show p.val = if (2048 : Nat) = 1 then 0 else p.val; rw [if_neg (by decide)]
    | ⟨1, _⟩ => by show 0 = if (1 : Nat) = 1 then 0 else q.val; rw [if_pos rfl]

/-- The body's stored value at (p, q): the column's entry p times the scale row's entry q plus the offset row's. -/
theorem pay_at (x0 : Vec Ideal S2048x1 .f32) (x1 x2 : Vec Ideal S1x768 .f32) (p : Fin 2048) (q : Fin 768) :
    k0_pay1 x0 x1 x2 (ix2 p q) = x0 (ix2 p (0 : Fin 1)) * x1 (ix2 (0 : Fin 1) q) + x2 (ix2 (0 : Fin 1) q) := by
  unfold k0_pay1
  simp only [shapeCast_self]
  show broadcastTo S2048x768 x0 broadcasts_S2048x1_S2048x768 (ix2 p q)
      * broadcastTo S2048x768 x1 broadcasts_S1x768_S2048x768 (ix2 p q)
    + broadcastTo S2048x768 x2 broadcasts_S1x768_S2048x768 (ix2 p q) = _
  rw [spread_col, broadcastTo_1b_ab_apply, broadcastTo_1b_ab_apply]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the column's and the output's blocks move with the point, the rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := by
  have h := t.isLt
  have hN : cfg0.N = 16 := N_0
  omega

/-- The column's block at point `t` is rows `2048 t …` of the column. -/
theorem iblk0_at (c : Dev nD) (t : Fin cfg0.N) (p : Fin 2048) (u : Fin 1) :
    (iblk m c 0 t : Vec Ideal S2048x1 .f32) (ix2 p u)
      = (V m c main_v17 : S32768x1.Idx → EReal)
          (ix2 (⟨t.val * 2048 + p.val, by have := point_lt t; have := p.isLt; omega⟩ : Fin 32768) (0 : Fin 1)) := by
  obtain ⟨e0, e1, -⟩ := idx_facts t
  have hu : u.val = 0 := by omega
  unfold iblk
  rw [View.read_apply]
  show V m c main_v17 _ = V m c main_v17 _
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 1 + 1 * u.val = 0; rw [e1]; omega

/-- The scale row's block at any point is the whole row. -/
theorem iblk1_at (c : Dev nD) (t : Fin cfg0.N) (u : Fin 1) (q : Fin 768) :
    (iblk m c 1 t : Vec Ideal S1x768 .f32) (ix2 u q) = (V m c main_v18 : S1x768.Idx → EReal) (ix2 (0 : Fin 1) q) := by
  obtain ⟨-, -, e2, e3, -⟩ := idx_facts t
  have hu : u.val = 0 := by omega
  unfold iblk
  rw [View.read_apply]
  show V m c main_v18 _ = V m c main_v18 _
  refine congrArg _ (funext fun a => Fin.ext ?_)
  match a with
  | ⟨0, _⟩ => show win0_1.index t (0 : Fin 2) * 1 + 1 * u.val = 0; rw [e2]; omega
  | ⟨1, _⟩ => show win0_1.index t (1 : Fin 2) * 768 + 1 * q.val = q.val; rw [e3]; omega

/-- The offset row's block at any point is the whole row. -/
theorem iblk2_at (c : Dev nD) (t : Fin cfg0.N) (u : Fin 1) (q : Fin 768) :
    (iblk m c 2 t : Vec Ideal S1x768 .f32) (ix2 u q) = (V m c main_v19 : S1x768.Idx → EReal) (ix2 (0 : Fin 1) q) := by
  obtain ⟨-, -, -, -, e4, e5, -⟩ := idx_facts t
  have hu : u.val = 0 := by omega
  unfold iblk
  rw [View.read_apply]
  show V m c main_v19 _ = V m c main_v19 _
  refine congrArg _ (funext fun a => Fin.ext ?_)
  match a with
  | ⟨0, _⟩ => show win0_2.index t (0 : Fin 2) * 1 + 1 * u.val = 0; rw [e4]; omega
  | ⟨1, _⟩ => show win0_2.index t (1 : Fin 2) * 768 + 1 * q.val = q.val; rw [e5]; omega

/-- Entry (p, q) of the output's block at point `t` sits at row `2048 t + p`, channel `q` of the output. -/
theorem oblk_emb (t : Fin cfg0.N) (p : Fin 2048) (q : Fin 768) :
    ((cfg0.win 3).blk t).view.emb (ix2 p q)
      = ix2 (⟨t.val * 2048 + p.val, by have := point_lt t; have := p.isLt; omega⟩ : Fin 32768) q := by
  obtain ⟨-, -, -, -, -, -, e6, e7⟩ := idx_facts t
  refine funext fun a => Fin.ext ?_
  match a with
  | ⟨0, _⟩ => show win0_3.index t (0 : Fin 2) * 2048 + 1 * p.val = t.val * 2048 + p.val; rw [e6]; omega
  | ⟨1, _⟩ => show win0_3.index t (1 : Fin 2) * 768 + 1 * q.val = q.val; rw [e7]; omega

/-- WHAT POINT `t` WRITES BACK is block `t` of the outer product of the three operand arrays. -/
theorem flushed_eq (c : Dev nD) (t : Fin cfg0.N) :
    (dats m 0 c).flushed 3 t
      = ((cfg0.win 3).blk t).view.read (Elt Ideal) (outer (V m c main_v17) (V m c main_v18) (V m c main_v19)) := by
  show (cfg0.win 3).cut (grid0.coords t) ((dats m 0 c).after 3 t) = _
  rw [after0_3]
  unfold out0_3
  rw [View.canon_unit_zero hz]
  simp only [View.ld_unit_zero (S := S2048x1) hz, View.ld_unit_zero (S := S1x768) hz]
  funext j
  obtain ⟨p, q, rfl⟩ : ∃ (p : Fin 2048) (q : Fin 768), j = ix2 p q := ⟨j 0, j 1, eq_ix2 j⟩
  show k0_pay1 (iblk m c 0 t) (iblk m c 1 t) (iblk m c 2 t) (ix2 p q)
    = outer (V m c main_v17) (V m c main_v18) (V m c main_v19) (((cfg0.win 3).blk t).view.emb (ix2 p q))
  rw [pay_at, iblk0_at, iblk1_at, iblk2_at, oblk_emb, outer_apply]

/-- An index of the output is in point `t`'s block iff each coordinate is in the block's range on its axis. -/
theorem mem_blk (t : Fin cfg0.N) (i : S32768x768.Idx) :
    i ∈ ((cfg0.win 3).blk t).view.set ↔ ∀ a : Fin 2, win0_3.index t a * S2048x768.size a ≤ (i a).val
      ∧ (i a).val < win0_3.index t a * S2048x768.size a + S2048x768.size a := by
  show i ∈ ((View.whole main_v20).slice (win0_3.rect t)).set ↔ _
  rw [View.set_slice_whole, Rect.mem_set_unit]
  exact Iff.rfl

/-- Every row of the output is in the block of the point `row / 2048`. -/
theorem cover (i : S32768x768.Idx) :
    ∃ t : Fin cfg0.N, (cfg0.win 3).flush t = true ∧ i ∈ ((cfg0.win 3).blk t).view.set := by
  have h0 : (i 0).val < 32768 := (i 0).isLt
  have h1 : (i 1).val < 768 := (i 1).isLt
  have hN : cfg0.N = 16 := N_0
  have ht : (i 0).val / 2048 < cfg0.N := by rw [hN]; omega
  obtain ⟨-, -, -, -, -, -, e6, e7⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 768 ≤ (i 1).val
      ∧ (i 1).val < win0_3.index ⟨(i 0).val / 2048, ht⟩ (1 : Fin 2) * 768 + 768
    rw [e7]; omega

/-- THE OUTPUT ARRAY after the region is the outer product of the three operand arrays. -/
theorem final (c : Dev nD) :
    (dats m 0 c).arrAt 3 cfg0.N = outer (V m c main_v17) (V m c main_v18) (V m c main_v19) :=
  (dats m 0 c).arrAt_eq_of_cover 3 _ (fun t _ => flushed_eq m c t) cover

end Cert.KernelIdeal.BlockValue

end
-- ==== Proof.KernelRun.lean ====
/-
  The kernel program's run, with its result named.

  After the region the program regroups the output's 32768 rows as [8, 4096]: the result at (b, l, e) is the output
  at row `4096 b + l`, channel `e`. The generated frame run gives every array after the run; here the result array is
  read off it: the host operation after the region applied to the region's output array, which is the outer product
  of the three operand arrays.
-/
import proofs.«163877_j42039139893533_2_alg».proof.Proof.KernelValue

noncomputable section

namespace Cert.KernelIdeal.RunValue

open Cert.KernelIdeal Cert.KernelIdeal.Gen Cert.KernelIdeal.BlockValue Idealize.ShloMosaic Idealize.ShloMosaic.TcCoe Idealize.SL.Sem
open Idealize.ShloMosaic.StableHlo Idealize.ShloMosaic.ValueIdx
open Idealize.ShloMosaic.Pipeline (Dat)

/-- The program's result from the region's three operand arrays: the outer product plus offset, rows regrouped. -/
def result (a : S32768x1.Idx → EReal) (g be : S1x768.Idx → EReal) : S8x4096x768.Idx → EReal :=
  shapeCast S8x4096x768 (outer a g be) shapeCasts_S32768x768_S8x4096x768

/-- The result at (b, l, e) is the outer product at row `4096 b + l`, channel `e`. -/
theorem result_apply (a : S32768x1.Idx → EReal) (g be : S1x768.Idx → EReal) (b : Fin 8) (l : Fin 4096) (e : Fin 768) :
    result a g be (ix3 b l e)
      = a (ix2 (⟨b.val * 4096 + l.val, by have := b.isLt; have := l.isLt; omega⟩ : Fin 32768) (0 : Fin 1))
          * g (ix2 (0 : Fin 1) e) + be (ix2 (0 : Fin 1) e) := by
  unfold result
  refine (shapeCast_apply _ shapeCasts_S32768x768_S8x4096x768 (ix3 b l e)
    (ix2 (⟨b.val * 4096 + l.val, by have := b.isLt; have := l.isLt; omega⟩ : Fin 32768) e) ?_).trans (outer_apply _ _ _ _ _)
  rw [Shape.rowMajor_val_two, Shape.rowMajor_val_three]
  rfl

variable (m : (ℓ : Loc nD τ sig) → Buf (Elt Ideal) ℓ) (ρ : Dev nD → PrngReg)

/-- The result buffer after the host operation that follows the region. -/
theorem tail_eq (c : Dev nD) :
    Pipeline.afterTail₀ cfgs (dats m) 0 (V0 m) [hostOps1] c main_v21
      = result (V m c main_v17) (V m c main_v18) (V m c main_v19) := by
  have e : Pipeline.withArrays (cfgs 0).spec c (V0 m c) (fun w => (dats m 0 c).arrAt w (cfgs 0).N) (Proc.devRef .tc main_v20)
      = outer (V m c main_v17) (V m c main_v18) (V m c main_v19) :=
    (Pipeline.withArrays_arr spec0 launch0.win.arr_inj c _ _ 3).trans (final m c)
  unfold Pipeline.afterTail₀
  show StableHlo.after hostOps1 _ (Proc.devRef .tc main_v21) = _
  after_results
  rw [e]
  rfl

/-- THE KERNEL PROGRAM'S RUN: it terminates with its result at `result` of the region's operand arrays and its
    arguments unchanged. -/
theorem run : θ_run defs (onTc (τ := τ) (main (F := Ideal))) ⟨m, fun _ => 0, ρ⟩ fun r => ∀ c : Dev nD,
      r.2.mem ((c.tc : Thread nD τ).loc main_v21) = result (V m c main_v17) (V m c main_v18) (V m c main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.LibLift.lean ====
/-
  Arrays of real numbers among arrays of extended reals.

  `lift f` is the array of extended reals whose entries are the real numbers `f i`. An array all of whose entries are
  real numbers is the lift of an array of reals (`exists_lift`), the coercion of a finite sum of reals is the sum of the
  coercions (`coe_sum`), and a finite sum of lifted entries is the coercion of the sum of the reals (`sum_lift`). With
  these a chain of sums and products applied to real inputs is computed over the real numbers, where every ring law
  holds, and coerced once at the end.
-/
import proofs.«163877_j42039139893533_2_alg».proof.Proof.LibReal

noncomputable section

open scoped BigOperators

namespace Cert.LibLift

open Cert.LibReal

/-- The array of extended reals with the real entries `f i`. -/
def lift {ι : Type*} (f : ι → ℝ) : ι → EReal := fun i => (f i : EReal)

theorem lift_apply {ι : Type*} (f : ι → ℝ) (i : ι) : lift f i = (f i : EReal) := rfl

/-- The coercion of a finite sum of real numbers is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of entries of a lifted array. -/
theorem sum_lift {ι κ : Type*} (s : Finset κ) (f : ι → ℝ) (g : κ → ι) :
    ∑ k ∈ s, lift f (g k) = ((∑ k ∈ s, f (g k) : ℝ) : EReal) := (coe_sum s fun k => f (g k)).symm

/-- An array whose entries are all real numbers is a lifted array. -/
theorem exists_lift {ι : Type*} (x : ι → EReal) (h : ∀ i, IsReal (x i)) : ∃ f : ι → ℝ, x = lift f :=
  ⟨fun i => (h i).choose, funext fun i => (h i).choose_spec⟩

end Cert.LibLift

end
-- ==== Proof.LibIdxSums.lean ====
/-
  General lemmas, no program in sight (they import only the library):

  * sums over a rank-1 or rank-3 index set as iterated sums over the coordinates (the library has rank 2), from the
    equivalences of those index sets with (products of) coordinate ranges;
  * a sum over the m·n positions of a row-major table as the sum over rows of the sums along each row;
  * a one-bit comparison result widened with zeros to 32 bits and converted as a SIGNED integer is the bit converted as an
    UNSIGNED one, at the extended reals: the two spellings of bool.astype(float32) that a kernel and a host program print.
-/
import Idealize.ShloMosaic.PureOps.Ideal
import Idealize.ShloMosaic.Lib.ValueIdx

noncomputable section

open scoped BigOperators

namespace Cert.LibIdxSums

open Idealize.ShloMosaic Idealize.ShloMosaic.ValueIdx

/-! ## A one-bit mask as a float -/

/-- A one-bit word widened with zeros and read as a signed integer is the bit read unsigned: 0 or 1. -/
theorem mask_word (b : BitVec 1) :
    (FloatOps.sitofp (F := Ideal) .f32 (b.setWidth 32) : EReal) = FloatOps.uitofp (F := Ideal) .f32 b := by
  have hb : b = 0#1 ∨ b = 1#1 := by revert b; decide
  rcases hb with rfl | rfl
  · show (((BitVec.setWidth 32 0#1).toInt : ℝ) : EReal) = (((0#1 : BitVec 1).toNat : ℝ) : EReal)
    have h1 : (BitVec.setWidth 32 0#1).toInt = 0 := by decide
    have h2 : (0#1 : BitVec 1).toNat = 0 := by decide
    rw [h1, h2]; simp
  · show (((BitVec.setWidth 32 1#1).toInt : ℝ) : EReal) = (((1#1 : BitVec 1).toNat : ℝ) : EReal)
    have h1 : (BitVec.setWidth 32 1#1).toInt = 1 := by decide
    have h2 : (1#1 : BitVec 1).toNat = 1 := by decide
    rw [h1, h2]; simp

/-! ## Sums over index sets by coordinates -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A sum over m·n positions, row by row. -/
theorem sum_fin_mul {M : Type*} [AddCommMonoid M] (m n : ℕ) (f : ℕ → M) :
    ∑ p : Fin (m * n), f p.val = ∑ a : Fin m, ∑ b : Fin n, f (a.val * n + b.val) := by
  rw [← Equiv.sum_comp finProdFinEquiv, Fintype.sum_prod_type]
  refine Finset.sum_congr rfl fun a _ => Finset.sum_congr rfl fun b _ => ?_
  rw [finProdFinEquiv_apply_val, Nat.mul_comm, Nat.add_comm]

end Cert.LibIdxSums

end
-- ==== Proof.Algebra.lean ====
/-
  The collapse of the network, over the real numbers.

  Every "expand" step of the reference replaces a row of an array by the sum of the row's channels, copied to all
  channels, and repeats the row along the length axis. After the first expand a row is constant along its channels,
  so a dense layer applied to it is the row's one value times the column sums of the weight matrix, plus the bias,
  and the next expand sums that over the output channels. Written out, the reference's result at length position
  `l` and channel `e` is a chain of nested finite sums (`stage36`), each over a constant summand or over a summand
  that is a constant times a weight. The kernel computes, for the same position, the row sum of the input at
  position `l / 64` times one vector `gamma` plus one vector `beta`, both built from total sums of the weights and
  biases. This file proves the two equal, by moving the constant factors out of the sums (which is sound over the
  real numbers) and by composing the floor divisions `(((l / 2) / 2) / 2) / 2) / 4 = l / 64`.
-/
import Mathlib.Algebra.BigOperators.Ring.Finset
import Mathlib.Algebra.BigOperators.Group.Finset.Basic
import Mathlib.Data.Real.Basic
import Mathlib.Data.Fintype.BigOperators
import Mathlib.Tactic.Ring
import Mathlib.Tactic.Linarith

open scoped BigOperators

namespace Cert.Collapse

section
variable (s : ℕ → ℝ) (W1 : Fin 256 → Fin 512 → ℝ) (b1 : Fin 512 → ℝ) (W2 : Fin 512 → Fin 768 → ℝ) (b2 : Fin 768 → ℝ)
  (W3 : Fin 768 → Fin 768 → ℝ) (b3 : Fin 768 → ℝ)

/-- Second expand: the channel sum of a row whose 256 channels all hold the first row sum at position `i / 4`. -/
def stage5 (i : ℕ) : ℝ := ∑ _k : Fin 256, s (i / 4)
/-- Third expand: the channel sum of a row whose 256 channels all hold `stage5` at position `i / 2`. -/
def stage10 (i : ℕ) : ℝ := ∑ _k : Fin 256, stage5 s (i / 2)
/-- First dense layer on a row whose channels all hold `stage10` at position `i / 2`. -/
def stage15 (i : ℕ) (e : Fin 512) : ℝ := ∑ k : Fin 256, stage10 s (i / 2) * W1 k e
/-- Its channel sum, bias included. -/
def stage19 (i : ℕ) : ℝ := ∑ e : Fin 512, (stage15 s W1 i e + b1 e)
/-- Second dense layer on a row whose channels all hold `stage19` at position `i / 2`. -/
def stage24 (i : ℕ) (e : Fin 768) : ℝ := ∑ k : Fin 512, stage19 s W1 b1 (i / 2) * W2 k e
/-- Its channel sum, bias included. -/
def stage28 (i : ℕ) : ℝ := ∑ e : Fin 768, (stage24 s W1 b1 W2 i e + b2 e)
/-- Third dense layer on a row whose channels all hold `stage28` at position `i / 2`, plus its bias: the reference's result. -/
def stage36 (i : ℕ) (e : Fin 768) : ℝ := (∑ k : Fin 768, stage28 s W1 b1 W2 b2 (i / 2) * W3 k e) + b3 e

/-- The kernel's scale vector: 256², the total of the first weights, the total of the second, the column sum of the third. -/
def gamma (e : Fin 768) : ℝ := ((65536 * ∑ d : Fin 256, ∑ e' : Fin 512, W1 d e') * ∑ k : Fin 512, ∑ e' : Fin 768, W2 k e') * ∑ k : Fin 768, W3 k e
/-- The kernel's offset vector. -/
def beta (e : Fin 768) : ℝ :=
  ((∑ e' : Fin 512, b1 e') * (∑ k : Fin 512, ∑ e' : Fin 768, W2 k e') + ∑ e' : Fin 768, b2 e') * (∑ k : Fin 768, W3 k e) + b3 e

/-- The reference's nested sums at position `l`, channel `e`, are the kernel's outer product plus offset. -/
theorem stage36_eq (l : ℕ) (e : Fin 768) :
    stage36 s W1 b1 W2 b2 W3 b3 l e = s (l / 64) * gamma W1 W2 W3 e + beta b1 W2 b2 W3 b3 e := by
  have hl : l / 2 / 2 / 2 / 2 / 4 = l / 64 := by omega
  unfold stage36 stage28 stage24 stage19 stage15 stage10 stage5 gamma beta
  rw [hl]
  simp only [Finset.sum_const, Finset.card_univ, Fintype.card_fin, nsmul_eq_mul, ← Finset.mul_sum,
    Finset.sum_add_distrib]
  rw [Finset.sum_comm (f := fun (e' : Fin 512) (k : Fin 256) => W1 k e'),
    Finset.sum_comm (f := fun (e' : Fin 768) (k : Fin 512) => W2 k e')]
  push_cast
  ring

end

end Cert.Collapse
-- ==== Proof.Spec.lean ====
/-
  The vocabulary the two sides share: a real matrix and a real vector by their coordinates, and the channel sums of
  the input array (the one quantity of the input either program depends on).
-/
import Idealize.ShloMosaic.Lib.ValueIdx
import proofs.«163877_j42039139893533_2_alg».proof.Proof.Algebra

noncomputable section

open scoped BigOperators

namespace Cert.Spec

open Idealize.ShloMosaic Idealize.ShloMosaic.ValueIdx

/-- A real matrix by its two coordinates. -/
def mat {a b : ℕ} (W : (⟨2, ![a, b]⟩ : Shape).Idx → ℝ) : Fin a → Fin b → ℝ := fun k e => W (ix2 k e)
/-- A real vector by its coordinate. -/
def vec {n : ℕ} (v : (⟨1, ![n]⟩ : Shape).Idx → ℝ) : Fin n → ℝ := fun e => v (ix1 e)

/-- The channel sum of row `m` of batch `b` of the input (zero for a row beyond the last, which is never read). -/
def rowSum (zr : (⟨3, ![8, 64, 256]⟩ : Shape).Idx → ℝ) (b : Fin 8) (m : ℕ) : ℝ :=
  if h : m < 64 then ∑ k : Fin 256, zr (ix3 b ⟨m, h⟩ k) else 0

end Cert.Spec

end
-- ==== Proof.KernelHostReal.lean ====
/-
  The region's three operands on real inputs, computed over the real numbers.

  On argument arrays with real entries the host operations before the region give: at row `4096 b + l` of the column, the
  input's channel sum at batch `b` and row `l / 64`; the scale row `gamma` and the offset row `beta`
  of the collapse. The float literal 65536 (= 256²) is that real number.
-/
import proofs.«163877_j42039139893533_2_alg».proof.Proof.KernelHost
import proofs.«163877_j42039139893533_2_alg».proof.Proof.LibLift
import proofs.«163877_j42039139893533_2_alg».proof.Proof.LibIdxSums
import proofs.«163877_j42039139893533_2_alg».proof.Proof.Spec

noncomputable section

open scoped BigOperators

namespace Cert.KernelIdeal.HostReal

open Cert.KernelIdeal Cert.KernelIdeal.Gen Cert.KernelIdeal.HostValue Idealize.ShloMosaic Idealize.ShloMosaic.ValueIdx
open Cert.LibLift Cert.Spec Cert.Collapse Cert.LibIdxSums

variable (zr : S8x64x256.Idx → ℝ) (W1r : S256x512.Idx → ℝ) (b1r : S512.Idx → ℝ) (W2r : S512x768.Idx → ℝ)
  (b2r : S768.Idx → ℝ) (W3r : S768x768.Idx → ℝ) (b3r : S768.Idx → ℝ)

/-- The float literal 65536.0 is the real number 65536. -/
theorem scale_word : Ideal.ofBits .f32 0x47800000#32 = ((65536 : ℝ) : EReal) := by
  simp [Ideal.ofBits, Ideal.ieee, -EReal.coe_mul]; norm_num

/-- The input's row sums on a real input. -/
theorem rows_real (b : Fin 8) (mm : Fin 64) :
    rows (F := Ideal) (lift zr) (ix2 b mm) = ((rowSum zr b mm.val : ℝ) : EReal) := by
  unfold rows
  simp only [Host.reduceAdd, Ideal.hostReduceAdd_def]
  rw [Ideal.hostReduceAdd_single reducesTo_S8x64x256_S8x64_d2 (by decide)]
  rw [constant_apply, Ideal.ofBits_zero_f32, zero_add]
  unfold rowSum
  rw [dif_pos mm.isLt, coe_sum]
  refine Finset.sum_congr rfl fun k _ => ?_
  exact congrArg (fun j => ((zr j : ℝ) : EReal))
    (funext fun a => Fin.ext (by match a with | ⟨0, _⟩ => rfl | ⟨1, _⟩ => rfl | ⟨2, _⟩ => rfl))

/-- Row `4096 b + l` of the column holds the row sum of batch `b` at row `l / 64`. -/
theorem aCol_at {F : FTy → Type} [FloatOps F] (z : FVec F S8x64x256 .f32) (b : Fin 8) (l : Fin 4096) (u : Fin 1) :
    aCol z (ix2 (⟨b.val * 4096 + l.val, by have := b.isLt; have := l.isLt; omega⟩ : Fin 32768) u)
      = rows z (ix2 b (⟨l.val / 64, by have := l.isLt; omega⟩ : Fin 64)) := by
  have hb := b.isLt
  have hl := l.isLt
  have hu : u.val = 0 := by omega
  unfold aCol
  refine (shapeCast_apply _ shapeCasts_S8x4096_S32768x1 _ (ix2 b l) ?_).trans ?_
  · rw [Shape.rowMajor_val_two, Shape.rowMajor_val_two]
    show b.val * 4096 + l.val = (b.val * 4096 + l.val) * 1 + u.val
    omega
  refine (shapeCast_apply _ shapeCasts_S8x64x64_S8x4096 _
    (ix3 b (⟨l.val / 64, by omega⟩ : Fin 64) (⟨l.val % 64, by omega⟩ : Fin 64)) ?_).trans ?_
  · rw [Shape.rowMajor_val_three, Shape.rowMajor_val_two]
    show (b.val * 64 + l.val / 64) * 64 + l.val % 64 = b.val * 4096 + l.val
    omega
  exact broadcastInDim_apply _ bcast_S8x64_S8x64x64_0_1 (rows z) _ _ (fun a => match a with
    | ⟨0, _⟩ => by show b.val = if (8 : Nat) = 1 then 0 else b.val; rw [if_neg (by decide)]
    | ⟨1, _⟩ => by show l.val / 64 = if (64 : Nat) = 1 then 0 else l.val / 64; rw [if_neg (by decide)])

/-- The total of the first weight matrix. -/
theorem tot1_real : tot1 (F := Ideal) (lift W1r) ix0 = ((∑ d : Fin 256, ∑ e : Fin 512, mat W1r d e : ℝ) : EReal) := by
  unfold tot1
  simp only [Host.reduceAdd, Ideal.hostReduceAdd_def]
  rw [Ideal.hostReduceAdd_total reducesTo_S256x512_S_d0_1 (fun b => b.elim0)]
  rw [constant_apply, Ideal.ofBits_zero_f32, zero_add, sum_idx2, coe_sum]
  refine Finset.sum_congr rfl fun a _ => ?_
  rw [coe_sum]
  rfl

/-- The total of the second weight matrix. -/
theorem tot2_real : tot2 (F := Ideal) (lift W2r) ix0 = ((∑ k : Fin 512, ∑ e : Fin 768, mat W2r k e : ℝ) : EReal) := by
  unfold tot2
  simp only [Host.reduceAdd, Ideal.hostReduceAdd_def]
  rw [Ideal.hostReduceAdd_total reducesTo_S512x768_S_d0_1 (fun b => b.elim0)]
  rw [constant_apply, Ideal.ofBits_zero_f32, zero_add, sum_idx2, coe_sum]
  refine Finset.sum_congr rfl fun a _ => ?_
  rw [coe_sum]
  rfl

/-- The total of the first bias. -/
theorem totb1_real : totb1 (F := Ideal) (lift b1r) ix0 = ((∑ e : Fin 512, vec b1r e : ℝ) : EReal) := by
  unfold totb1
  simp only [Host.reduceAdd, Ideal.hostReduceAdd_def]
  rw [Ideal.hostReduceAdd_total reducesTo_S512_S_d0 (fun b => b.elim0)]
  rw [constant_apply, Ideal.ofBits_zero_f32, zero_add, sum_idx1, coe_sum]
  rfl

/-- The total of the second bias. -/
theorem totb2_real : totb2 (F := Ideal) (lift b2r) ix0 = ((∑ e : Fin 768, vec b2r e : ℝ) : EReal) := by
  unfold totb2
  simp only [Host.reduceAdd, Ideal.hostReduceAdd_def]
  rw [Ideal.hostReduceAdd_total reducesTo_S768_S_d0 (fun b => b.elim0)]
  rw [constant_apply, Ideal.ofBits_zero_f32, zero_add, sum_idx1, coe_sum]
  rfl

/-- The column sums of the third weight matrix. -/
theorem cols3_real (e : Fin 768) :
    cols3 (F := Ideal) (lift W3r) (ix1 e) = ((∑ k : Fin 768, mat W3r k e : ℝ) : EReal) := by
  unfold cols3
  simp only [Host.reduceAdd, Ideal.hostReduceAdd_def]
  rw [Ideal.hostReduceAdd_single reducesTo_S768x768_S768_d0 (by decide)]
  rw [constant_apply, Ideal.ofBits_zero_f32, zero_add, coe_sum]
  refine Finset.sum_congr rfl fun k _ => ?_
  exact congrArg (fun j => ((W3r j : ℝ) : EReal))
    (funext fun a => Fin.ext (by match a with | ⟨0, _⟩ => rfl | ⟨1, _⟩ => rfl))

/-- The scale row is the collapse's `gamma`. -/
theorem gammaRow_real (u : Fin 1) (e : Fin 768) :
    gammaRow (F := Ideal) (lift W1r) (lift W2r) (lift W3r) (ix2 u e)
      = ((gamma (mat W1r) (mat W2r) (mat W3r) e : ℝ) : EReal) := by
  unfold gammaRow
  refine (shapeCast_a_1a_apply _ shapeCasts_S768_S1x768 u e).trans ?_
  rw [mulf_apply, broadcastInDim_apply _ bcast_S_S768 _ (ix1 e) ix0 (fun a => a.elim0)]
  rw [mulf_apply, mulf_apply, constant_apply, scale_word, tot1_real, tot2_real, cols3_real]
  unfold gamma
  rw [EReal.coe_mul, EReal.coe_mul, EReal.coe_mul]

/-- The offset row is the collapse's `beta`. -/
theorem betaRow_real (u : Fin 1) (e : Fin 768) :
    betaRow (F := Ideal) (lift b1r) (lift W2r) (lift b2r) (lift W3r) (lift b3r) (ix2 u e)
      = ((beta (vec b1r) (mat W2r) (vec b2r) (mat W3r) (vec b3r) e : ℝ) : EReal) := by
  unfold betaRow
  refine (shapeCast_a_1a_apply _ shapeCasts_S768_S1x768 u e).trans ?_
  rw [addf_apply, mulf_apply, broadcastInDim_apply _ bcast_S_S768 _ (ix1 e) ix0 (fun a => a.elim0)]
  rw [addf_apply, mulf_apply, totb1_real, tot2_real, totb2_real, cols3_real]
  unfold beta
  rw [EReal.coe_add, EReal.coe_mul, EReal.coe_add, EReal.coe_mul]
  rfl

end Cert.KernelIdeal.HostReal

end
-- ==== Proof.RefLayout.lean ====
/-
  The reference's layout steps, read by coordinates.

  An "expand" step of the reference takes the array of row sums [8, L], gives it a unit channel axis, copies the one
  channel to D channels, inserts a repeat axis of length r before the channels and folds it into the length axis:
  [8, L] → [8, L, 1] → [8, L, D] → [8, L, r, D] → [8, L·r, D]. Position `i` of the folded axis comes from row `i / r`,
  whatever the channel. A bias is spread from [N] over [1, 1, N] to [8, L, N]: entry (b, i, e) is bias entry `e`.
  Each lemma below composes the generated one-operation reading lemmas and settles the row-major arithmetic.
-/
import proofs.«163877_j42039139893533_2_alg».proof.Proof.Gen.ReferenceIdeal.Read

noncomputable section

namespace Cert.ReferenceIdeal.Layout

open Cert.ReferenceIdeal Cert.ReferenceIdeal.Read Idealize.ShloMosaic Idealize.ShloMosaic.ValueIdx

variable {F : FTy → Type} [FloatOps F]

/-- Half of a position below 2n is a position below n. -/
abbrev half {n : ℕ} (i : Fin (2 * n)) : Fin n := ⟨i.val / 2, by have := i.isLt; omega⟩
/-- A quarter of a position below 256 is a position below 64. -/
abbrev quarter (i : Fin 256) : Fin 64 := ⟨i.val / 4, by have := i.isLt; omega⟩

/-- After the first expand (repeat 4) every channel of row `i` holds the first row sum at row `i / 4`. -/
theorem v4_at (x0 : (⟨S8x64x256, .f32⟩ : BufTy).Contents (Elt F)) (b : Fin 8) (i : Fin 256) (d : Fin 256) :
    val_main_v4 (F := F) x0 (ix3 b i d) = val_main_v0 (F := F) x0 (ix2 b (quarter i)) := by
  rw [val_main_v4_apply, val_main_v3_apply, val_main_v2_apply, val_main_v1_apply]
  refine congrArg _ (funext fun a => Fin.ext ?_)
  have hb := b.isLt; have hi := i.isLt; have hd := d.isLt
  match a with
  | ⟨0, _⟩ => show ((b.val * 256 + i.val) * 256 + d.val) / 65536 = b.val; omega
  | ⟨1, _⟩ => show ((b.val * 256 + i.val) * 256 + d.val) / 1024 % 64 = i.val / 4; omega

/-- After the second expand (repeat 2) every channel of row `i` holds the second row sum at row `i / 2`. -/
theorem v9_at (x0 : (⟨S8x64x256, .f32⟩ : BufTy).Contents (Elt F)) (b : Fin 8) (i : Fin 512) (d : Fin 256) :
    val_main_v9 (F := F) x0 (ix3 b i d) = val_main_v5 (F := F) x0 (ix2 b (half (n := 256) i)) := by
  rw [val_main_v9_apply, val_main_v8_apply, val_main_v7_apply, val_main_v6_apply]
  refine congrArg _ (funext fun a => Fin.ext ?_)
  have hb := b.isLt; have hi := i.isLt; have hd := d.isLt
  match a with
  | ⟨0, _⟩ => show ((b.val * 512 + i.val) * 256 + d.val) / 131072 = b.val; omega
  | ⟨1, _⟩ => show ((b.val * 512 + i.val) * 256 + d.val) / 512 % 256 = i.val / 2; omega

/-- After the third expand (repeat 2) every channel of row `i` holds the third row sum at row `i / 2`. -/
theorem v14_at (x0 : (⟨S8x64x256, .f32⟩ : BufTy).Contents (Elt F)) (b : Fin 8) (i : Fin 1024) (d : Fin 256) :
    val_main_v14 (F := F) x0 (ix3 b i d) = val_main_v10 (F := F) x0 (ix2 b (half (n := 512) i)) := by
  rw [val_main_v14_apply, val_main_v13_apply, val_main_v12_apply, val_main_v11_apply]
  refine congrArg _ (funext fun a => Fin.ext ?_)
  have hb := b.isLt; have hi := i.isLt; have hd := d.isLt
  match a with
  | ⟨0, _⟩ => show ((b.val * 1024 + i.val) * 256 + d.val) / 262144 = b.val; omega
  | ⟨1, _⟩ => show ((b.val * 1024 + i.val) * 256 + d.val) / 512 % 512 = i.val / 2; omega

/-- The expand after the first dense layer (repeat 2, 512 channels). -/
theorem v23_at (x0 : (⟨S8x64x256, .f32⟩ : BufTy).Contents (Elt F)) (x1 : (⟨S256x512, .f32⟩ : BufTy).Contents (Elt F))
    (x2 : (⟨S512, .f32⟩ : BufTy).Contents (Elt F)) (b : Fin 8) (i : Fin 2048) (d : Fin 512) :
    val_main_v23 (F := F) x0 x1 x2 (ix3 b i d) = val_main_v19 (F := F) x0 x1 x2 (ix2 b (half (n := 1024) i)) := by
  rw [val_main_v23_apply, val_main_v22_apply, val_main_v21_apply, val_main_v20_apply]
  refine congrArg _ (funext fun a => Fin.ext ?_)
  have hb := b.isLt; have hi := i.isLt; have hd := d.isLt
  match a with
  | ⟨0, _⟩ => show ((b.val * 2048 + i.val) * 512 + d.val) / 1048576 = b.val; omega
  | ⟨1, _⟩ => show ((b.val * 2048 + i.val) * 512 + d.val) / 1024 % 1024 = i.val / 2; omega

/-- The expand after the second dense layer (repeat 2, 768 channels). -/
theorem v32_at (x0 : (⟨S8x64x256, .f32⟩ : BufTy).Contents (Elt F)) (x1 : (⟨S256x512, .f32⟩ : BufTy).Contents (Elt F))
    (x2 : (⟨S512, .f32⟩ : BufTy).Contents (Elt F)) (x3 : (⟨S512x768, .f32⟩ : BufTy).Contents (Elt F))
    (x4 : (⟨S768, .f32⟩ : BufTy).Contents (Elt F)) (b : Fin 8) (i : Fin 4096) (d : Fin 768) :
    val_main_v32 (F := F) x0 x1 x2 x3 x4 (ix3 b i d) = val_main_v28 (F := F) x0 x1 x2 x3 x4 (ix2 b (half (n := 2048) i)) := by
  rw [val_main_v32_apply, val_main_v31_apply, val_main_v30_apply, val_main_v29_apply]
  refine congrArg _ (funext fun a => Fin.ext ?_)
  have hb := b.isLt; have hi := i.isLt; have hd := d.isLt
  match a with
  | ⟨0, _⟩ => show ((b.val * 4096 + i.val) * 768 + d.val) / 3145728 = b.val; omega
  | ⟨1, _⟩ => show ((b.val * 4096 + i.val) * 768 + d.val) / 1536 % 2048 = i.val / 2; omega

/-- The first bias spread over [8, 1024, 512]. -/
theorem v17_at (x2 : (⟨S512, .f32⟩ : BufTy).Contents (Elt F)) (b : Fin 8) (i : Fin 1024) (e : Fin 512) :
    val_main_v17 (F := F) x2 (ix3 b i e) = x2 (ix1 e) := by
  rw [val_main_v17_apply, val_main_v16_apply]
  exact congrArg _ (funext fun a => Fin.ext (by match a with | ⟨0, _⟩ => rfl))

/-- The second bias spread over [8, 2048, 768]. -/
theorem v26_at (x4 : (⟨S768, .f32⟩ : BufTy).Contents (Elt F)) (b : Fin 8) (i : Fin 2048) (e : Fin 768) :
    val_main_v26 (F := F) x4 (ix3 b i e) = x4 (ix1 e) := by
  rw [val_main_v26_apply, val_main_v25_apply]
  exact congrArg _ (funext fun a => Fin.ext (by match a with | ⟨0, _⟩ => rfl))

/-- The third bias spread over [8, 4096, 768]. -/
theorem v35_at (x6 : (⟨S768, .f32⟩ : BufTy).Contents (Elt F)) (b : Fin 8) (i : Fin 4096) (e : Fin 768) :
    val_main_v35 (F := F) x6 (ix3 b i e) = x6 (ix1 e) := by
  rw [val_main_v35_apply, val_main_v34_apply]
  exact congrArg _ (funext fun a => Fin.ext (by match a with | ⟨0, _⟩ => rfl))

end Cert.ReferenceIdeal.Layout

end
-- ==== Proof.RefValue.lean ====
/-
  The reference on real inputs, computed over the real numbers.

  When the seven argument arrays have real entries, every stage of the reference has real entries: a stage is a
  finite sum, a sum of two stages or a sum of products of earlier stages and argument entries. Stage by stage, in
  the reference's order, each lemma says that the stage at given coordinates is the coercion of the corresponding
  real-number stage of the collapse (`Cert.Collapse.stage5` … `stage36`), taken at the row function
  `rowSum zr b` (the channel sums of the input's batch `b`). Every sum starts from the float zero, which is the
  extended real 0.
-/
import proofs.«163877_j42039139893533_2_alg».proof.Proof.RefLayout
import proofs.«163877_j42039139893533_2_alg».proof.Proof.LibLift
import proofs.«163877_j42039139893533_2_alg».proof.Proof.Spec

noncomputable section

open scoped BigOperators

namespace Cert.ReferenceIdeal.RealValue

open Cert.ReferenceIdeal Cert.ReferenceIdeal.Read Cert.ReferenceIdeal.Layout Idealize.ShloMosaic Idealize.ShloMosaic.ValueIdx
open Cert.LibLift Cert.Collapse Cert.Spec

variable (zr : S8x64x256.Idx → ℝ) (W1r : S256x512.Idx → ℝ) (b1r : S512.Idx → ℝ) (W2r : S512x768.Idx → ℝ)
  (b2r : S768.Idx → ℝ) (W3r : S768x768.Idx → ℝ) (b3r : S768.Idx → ℝ)

/-- The float zero every host sum starts from is 0. -/
theorem zero_word : FloatOps.ofBits (F := Ideal) .f32 0x00000000#32 = (0 : EReal) := Ideal.ofBits_zero_f32

/-! ## The generated index maps at coordinates -/

theorem idx0 (b : Fin 8) (m : Fin 64) (k : Fin 256) : idx_main_v0 (ix2 b m) k = ix3 b m k :=
  funext fun a => Fin.ext (by match a with | ⟨0, _⟩ => rfl | ⟨1, _⟩ => rfl | ⟨2, _⟩ => rfl)
theorem idx5 (b : Fin 8) (i : Fin 256) (k : Fin 256) : idx_main_v5 (ix2 b i) k = ix3 b i k :=
  funext fun a => Fin.ext (by match a with | ⟨0, _⟩ => rfl | ⟨1, _⟩ => rfl | ⟨2, _⟩ => rfl)
theorem idx10 (b : Fin 8) (i : Fin 512) (k : Fin 256) : idx_main_v10 (ix2 b i) k = ix3 b i k :=
  funext fun a => Fin.ext (by match a with | ⟨0, _⟩ => rfl | ⟨1, _⟩ => rfl | ⟨2, _⟩ => rfl)
theorem lidx15 (b : Fin 8) (i : Fin 1024) (e : Fin 512) (k : Fin 256) : lidx_main_v15 (ix3 b i e) k = ix3 b i k :=
  funext fun a => Fin.ext (by match a with | ⟨0, _⟩ => rfl | ⟨1, _⟩ => rfl | ⟨2, _⟩ => rfl)
theorem ridx15 (b : Fin 8) (i : Fin 1024) (e : Fin 512) (k : Fin 256) : ridx_main_v15 (ix3 b i e) k = ix2 k e :=
  funext fun a => Fin.ext (by match a with | ⟨0, _⟩ => rfl | ⟨1, _⟩ => rfl)
theorem idx19 (b : Fin 8) (i : Fin 1024) (k : Fin 512) : idx_main_v19 (ix2 b i) k = ix3 b i k :=
  funext fun a => Fin.ext (by match a with | ⟨0, _⟩ => rfl | ⟨1, _⟩ => rfl | ⟨2, _⟩ => rfl)
theorem lidx24 (b : Fin 8) (i : Fin 2048) (e : Fin 768) (k : Fin 512) : lidx_main_v24 (ix3 b i e) k = ix3 b i k :=
  funext fun a => Fin.ext (by match a with | ⟨0, _⟩ => rfl | ⟨1, _⟩ => rfl | ⟨2, _⟩ => rfl)
theorem ridx24 (b : Fin 8) (i : Fin 2048) (e : Fin 768) (k : Fin 512) : ridx_main_v24 (ix3 b i e) k = ix2 k e :=
  funext fun a => Fin.ext (by match a with | ⟨0, _⟩ => rfl | ⟨1, _⟩ => rfl)
theorem idx28 (b : Fin 8) (i : Fin 2048) (k : Fin 768) : idx_main_v28 (ix2 b i) k = ix3 b i k :=
  funext fun a => Fin.ext (by match a with | ⟨0, _⟩ => rfl | ⟨1, _⟩ => rfl | ⟨2, _⟩ => rfl)
theorem lidx33 (b : Fin 8) (i : Fin 4096) (e : Fin 768) (k : Fin 768) : lidx_main_v33 (ix3 b i e) k = ix3 b i k :=
  funext fun a => Fin.ext (by match a with | ⟨0, _⟩ => rfl | ⟨1, _⟩ => rfl | ⟨2, _⟩ => rfl)
theorem ridx33 (b : Fin 8) (i : Fin 4096) (e : Fin 768) (k : Fin 768) : ridx_main_v33 (ix3 b i e) k = ix2 k e :=
  funext fun a => Fin.ext (by match a with | ⟨0, _⟩ => rfl | ⟨1, _⟩ => rfl)

/-! ## The stages -/
/-- The first row sums. -/
theorem v0_real (b : Fin 8) (m : Fin 64) :
    val_main_v0 (F := Ideal) (lift zr) (ix2 b m) = ((rowSum zr b m.val : ℝ) : EReal) := by
  rw [val_main_v0_apply, val_main_cst_apply, zero_word, zero_add]
  unfold rowSum
  rw [dif_pos m.isLt, coe_sum]
  refine Finset.sum_congr rfl fun k _ => ?_
  rw [idx0]
  rfl

/-- The second row sums: 256 copies of the first at row `i / 4`. -/
theorem v5_real (b : Fin 8) (i : Fin 256) :
    val_main_v5 (F := Ideal) (lift zr) (ix2 b i) = ((stage5 (rowSum zr b) i.val : ℝ) : EReal) := by
  rw [val_main_v5_apply, val_main_cst_0_apply, zero_word, zero_add]
  unfold stage5
  rw [coe_sum]
  refine Finset.sum_congr rfl fun k _ => ?_
  rw [idx5, v4_at (F := Ideal), v0_real]

/-- The third row sums: 256 copies of the second at row `i / 2`. -/
theorem v10_real (b : Fin 8) (i : Fin 512) :
    val_main_v10 (F := Ideal) (lift zr) (ix2 b i) = ((stage10 (rowSum zr b) i.val : ℝ) : EReal) := by
  rw [val_main_v10_apply, val_main_cst_1_apply, zero_word, zero_add]
  unfold stage10
  rw [coe_sum]
  refine Finset.sum_congr rfl fun k _ => ?_
  rw [idx10, v9_at (F := Ideal), v5_real]

/-- The first dense layer: the row's one value against a column of the first weight matrix. -/
theorem v15_real (b : Fin 8) (i : Fin 1024) (e : Fin 512) :
    val_main_v15 (F := Ideal) (lift zr) (lift W1r) (ix3 b i e)
      = ((stage15 (rowSum zr b) (mat W1r) i.val e : ℝ) : EReal) := by
  rw [val_main_v15_apply]
  unfold stage15
  rw [coe_sum]
  refine Finset.sum_congr rfl fun k _ => ?_
  rw [lidx15, ridx15, v14_at (F := Ideal), v10_real, EReal.coe_mul]
  rfl

/-- The first dense layer with its bias. -/
theorem v18_real (b : Fin 8) (i : Fin 1024) (e : Fin 512) :
    val_main_v18 (F := Ideal) (lift zr) (lift W1r) (lift b1r) (ix3 b i e)
      = ((stage15 (rowSum zr b) (mat W1r) i.val e + vec b1r e : ℝ) : EReal) := by
  rw [val_main_v18_apply, v15_real, v17_at (F := Ideal), EReal.coe_add]
  rfl

/-- Its channel sums. -/
theorem v19_real (b : Fin 8) (i : Fin 1024) :
    val_main_v19 (F := Ideal) (lift zr) (lift W1r) (lift b1r) (ix2 b i)
      = ((stage19 (rowSum zr b) (mat W1r) (vec b1r) i.val : ℝ) : EReal) := by
  rw [val_main_v19_apply, val_main_cst_2_apply, zero_word, zero_add]
  unfold stage19
  rw [coe_sum]
  refine Finset.sum_congr rfl fun k _ => ?_
  rw [idx19, v18_real]

/-- The second dense layer. -/
theorem v24_real (b : Fin 8) (i : Fin 2048) (e : Fin 768) :
    val_main_v24 (F := Ideal) (lift zr) (lift W1r) (lift b1r) (lift W2r) (ix3 b i e)
      = ((stage24 (rowSum zr b) (mat W1r) (vec b1r) (mat W2r) i.val e : ℝ) : EReal) := by
  rw [val_main_v24_apply]
  unfold stage24
  rw [coe_sum]
  refine Finset.sum_congr rfl fun k _ => ?_
  rw [lidx24, ridx24, v23_at (F := Ideal), v19_real, EReal.coe_mul]
  rfl

/-- The second dense layer with its bias. -/
theorem v27_real (b : Fin 8) (i : Fin 2048) (e : Fin 768) :
    val_main_v27 (F := Ideal) (lift zr) (lift W1r) (lift b1r) (lift W2r) (lift b2r) (ix3 b i e)
      = ((stage24 (rowSum zr b) (mat W1r) (vec b1r) (mat W2r) i.val e + vec b2r e : ℝ) : EReal) := by
  rw [val_main_v27_apply, v24_real, v26_at (F := Ideal), EReal.coe_add]
  rfl

/-- Its channel sums. -/
theorem v28_real (b : Fin 8) (i : Fin 2048) :
    val_main_v28 (F := Ideal) (lift zr) (lift W1r) (lift b1r) (lift W2r) (lift b2r) (ix2 b i)
      = ((stage28 (rowSum zr b) (mat W1r) (vec b1r) (mat W2r) (vec b2r) i.val : ℝ) : EReal) := by
  rw [val_main_v28_apply, val_main_cst_3_apply, zero_word, zero_add]
  unfold stage28
  rw [coe_sum]
  refine Finset.sum_congr rfl fun k _ => ?_
  rw [idx28, v27_real]

/-- The third dense layer. -/
theorem v33_real (b : Fin 8) (i : Fin 4096) (e : Fin 768) :
    val_main_v33 (F := Ideal) (lift zr) (lift W1r) (lift b1r) (lift W2r) (lift b2r) (lift W3r) (ix3 b i e)
      = ((∑ k : Fin 768, stage28 (rowSum zr b) (mat W1r) (vec b1r) (mat W2r) (vec b2r) (i.val / 2) * mat W3r k e : ℝ) : EReal) := by
  rw [val_main_v33_apply, coe_sum]
  refine Finset.sum_congr rfl fun k _ => ?_
  rw [lidx33, ridx33, v32_at (F := Ideal), v28_real, EReal.coe_mul]
  rfl

/-- THE REFERENCE'S RESULT on real inputs, at batch `b`, position `i`, channel `e`: the collapse's last stage. -/
theorem v36_real (b : Fin 8) (i : Fin 4096) (e : Fin 768) :
    val_main_v36 (F := Ideal) (lift zr) (lift W1r) (lift b1r) (lift W2r) (lift b2r) (lift W3r) (lift b3r) (ix3 b i e)
      = ((stage36 (rowSum zr b) (mat W1r) (vec b1r) (mat W2r) (vec b2r) (mat W3r) (vec b3r) i.val e : ℝ) : EReal) := by
  rw [val_main_v36_apply, v33_real, v35_at (F := Ideal)]
  unfold stage36
  rw [EReal.coe_add]
  rfl

end Cert.ReferenceIdeal.RealValue

end
-- ==== Proof.Bridge.lean ====
/-
  The two programs compute one function of real inputs.

  On argument arrays with real entries the kernel program's result at (b, l, e) is the channel sum of the input at
  batch `b`, row `l / 64`, times `gamma e`, plus `beta e`; the reference's is the collapse's last stage at the same
  coordinates; the collapse identity joins them.
-/
import proofs.«163877_j42039139893533_2_alg».proof.Proof.KernelRun
import proofs.«163877_j42039139893533_2_alg».proof.Proof.KernelHostReal
import proofs.«163877_j42039139893533_2_alg».proof.Proof.RefValue

noncomputable section

namespace Cert.Bridge

open Idealize.ShloMosaic Idealize.ShloMosaic.ValueIdx Cert.LibLift Cert.Spec Cert.Collapse
open Cert.KernelIdeal.HostValue Cert.KernelIdeal.HostReal Cert.KernelIdeal.RunValue

variable (zr : Cert.KernelIdeal.S8x64x256.Idx → ℝ) (W1r : Cert.KernelIdeal.S256x512.Idx → ℝ)
  (b1r : Cert.KernelIdeal.S512.Idx → ℝ) (W2r : Cert.KernelIdeal.S512x768.Idx → ℝ) (b2r : Cert.KernelIdeal.S768.Idx → ℝ)
  (W3r : Cert.KernelIdeal.S768x768.Idx → ℝ) (b3r : Cert.KernelIdeal.S768.Idx → ℝ)

/-- The kernel program's result on real inputs: the outer product of the row sums with `gamma`, plus `beta`. -/
theorem kernel_real (b : Fin 8) (l : Fin 4096) (e : Fin 768) :
    result (aCol (F := Ideal) (lift zr)) (gammaRow (F := Ideal) (lift W1r) (lift W2r) (lift W3r))
        (betaRow (F := Ideal) (lift b1r) (lift W2r) (lift b2r) (lift W3r) (lift b3r)) (ix3 b l e)
      = ((rowSum zr b (l.val / 64) * gamma (mat W1r) (mat W2r) (mat W3r) e
          + beta (vec b1r) (mat W2r) (vec b2r) (mat W3r) (vec b3r) e : ℝ) : EReal) := by
  rw [result_apply, aCol_at, rows_real, gammaRow_real, betaRow_real, EReal.coe_add, EReal.coe_mul]

/-- THE BRIDGE: on real inputs the kernel program's result array is the reference's. -/
theorem result_eq :
    result (aCol (F := Ideal) (lift zr)) (gammaRow (F := Ideal) (lift W1r) (lift W2r) (lift W3r))
        (betaRow (F := Ideal) (lift b1r) (lift W2r) (lift b2r) (lift W3r) (lift b3r))
      = Cert.ReferenceIdeal.Read.val_main_v36 (F := Ideal) (lift zr) (lift W1r) (lift b1r) (lift W2r) (lift b2r)
          (lift W3r) (lift b3r) := by
  funext i
  obtain ⟨b, l, e, rfl⟩ : ∃ (b : Fin 8) (l : Fin 4096) (e : Fin 768), i = ix3 b l e := ⟨i 0, i 1, i 2, eq_ix3 i⟩
  rw [kernel_real, Cert.ReferenceIdeal.RealValue.v36_real, stage36_eq]

end Cert.Bridge

end
-- ==== Proof.lean ====
/-
  The certificate of the collapsed text-decoder kernel against its reference.

  The reference runs three "expand" steps (channel sum, copy to all channels, repeat along the length), then three
  dense layers, each but the last followed by another expand. After an expand every channel of a row holds one
  value, so a dense layer sees that value times the column sums of its weights, plus the bias; the whole network is
  therefore `out[b, l, e] = s0[b, l / 64] · gamma[e] + beta[e]`, with `s0` the channel sums of the input and `gamma`,
  `beta` two vectors made of total sums of the weights and biases. The kernel program computes `s0`, `gamma` and `beta`
  on the host and the outer product plus offset in its region.

  Moving a factor across a sum is not sound among the extended reals when an infinity is present, so the proof uses
  the precondition: every argument entry is a real number (Proof/Finite.lean). Both results are then coercions of
  real numbers (Proof/RefValue.lean for the reference, over the generated reading lemmas; Proof/KernelHost.lean,
  KernelHostReal.lean, KernelValue.lean and KernelRun.lean for the kernel program, over the generated frame run), and
  the two real numbers are equal by the collapse identity (Proof/Algebra.lean), joined in Proof/Bridge.lean.
  The three frames are the generated ones (the reference's from its generated run); the idealization rewrote
  nothing, so `preserves` is trivial.
-/
import proofs.«163877_j42039139893533_2_alg».proof.Defs
import proofs.«163877_j42039139893533_2_alg».proof.Proof.Gen.Kernel
import proofs.«163877_j42039139893533_2_alg».proof.Proof.Gen.Kernel.Skeleton
import proofs.«163877_j42039139893533_2_alg».proof.Proof.Gen.Kernel.Launch
import proofs.«163877_j42039139893533_2_alg».proof.Proof.Gen.Kernel.Points
import proofs.«163877_j42039139893533_2_alg».proof.Proof.Gen.Kernel.Frame
import proofs.«163877_j42039139893533_2_alg».proof.Proof.Gen.KernelIdeal
import proofs.«163877_j42039139893533_2_alg».proof.Proof.Gen.KernelIdeal.Skeleton
import proofs.«163877_j42039139893533_2_alg».proof.Proof.Gen.KernelIdeal.Launch
import proofs.«163877_j42039139893533_2_alg».proof.Proof.Gen.KernelIdeal.Points
import proofs.«163877_j42039139893533_2_alg».proof.Proof.Gen.KernelIdeal.Frame
import proofs.«163877_j42039139893533_2_alg».proof.Proof.Gen.ReferenceIdeal
import proofs.«163877_j42039139893533_2_alg».proof.Proof.Gen.Pre_finite_inputs
import proofs.«163877_j42039139893533_2_alg».proof.Proof.Gen.ReferenceIdeal.Run
import proofs.«163877_j42039139893533_2_alg».proof.Proof.Gen.ReferenceIdeal.Read
import proofs.«163877_j42039139893533_2_alg».proof.Proof.Finite
import proofs.«163877_j42039139893533_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on real arguments, end with the same result array: the kernel
    program's result (its run, read off the generated frame) is the reference's last stage (its generated run). -/
theorem algebraic : Cert.algebraic_KernelIdeal_ReferenceIdeal := by
  intro m ρ m' ρ' hpre hagree
  refine ⟨fun c => Cert.KernelIdeal.RunValue.result (Cert.KernelIdeal.Gen.V m c Cert.KernelIdeal.main_v17)
      (Cert.KernelIdeal.Gen.V m c Cert.KernelIdeal.main_v18) (Cert.KernelIdeal.Gen.V m c Cert.KernelIdeal.main_v19),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _ _ _ _ _).trans ?_
  beta_reduce
  obtain ⟨a0, a1, a2, a3, a4, a5, a6⟩ := hagree c
  rw [a0, a1, a2, a3, a4, a5, a6, Cert.KernelIdeal.HostValue.V_main_v17, Cert.KernelIdeal.HostValue.V_main_v18,
    Cert.KernelIdeal.HostValue.V_main_v19]
  obtain ⟨r0, r1, r2, r3, r4, r5, r6⟩ := Cert.FiniteInputs.args_real _ _ _ _ _ _ _ (hpre c)
  obtain ⟨zr, hz⟩ := Cert.LibLift.exists_lift _ r0
  obtain ⟨W1r, hW1⟩ := Cert.LibLift.exists_lift _ r1
  obtain ⟨b1r, hb1⟩ := Cert.LibLift.exists_lift _ r2
  obtain ⟨W2r, hW2⟩ := Cert.LibLift.exists_lift _ r3
  obtain ⟨b2r, hb2⟩ := Cert.LibLift.exists_lift _ r4
  obtain ⟨W3r, hW3⟩ := Cert.LibLift.exists_lift _ r5
  obtain ⟨b3r, hb3⟩ := Cert.LibLift.exists_lift _ r6
  rw [hz, hW1, hb1, hW2, hb2, hW3, hb3]
  exact (Cert.Bridge.result_eq zr W1r b1r W2r b2r W3r b3r).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
